-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x4194304 : Shape := ⟨2, ![2, 4194304]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x16 .f32) (main_arg1 : IVec S2x4194304 32) (main_arg2 : FVec F S32x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x16 : Shape := ⟨2, ![100000, 16]⟩
abbrev S2x4194304 : Shape := ⟨2, ![2, 4194304]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x4194304 : Shape := ⟨2, ![1, 4194304]⟩
abbrev S4194304 : Shape := ⟨1, ![4194304]⟩
abbrev S_ : Shape := ⟨0, ![]⟩
abbrev S4194304x1 : Shape := ⟨2, ![4194304, 1]⟩
abbrev S4194304x16 : Shape := ⟨2, ![4194304, 16]⟩
abbrev S4194304x32 : Shape := ⟨2, ![4194304, 32]⟩
abbrev S1x32 : Shape := ⟨2, ![1, 32]⟩
abbrev S32768x128 : Shape := ⟨2, ![32768, 128]⟩
abbrev S16384x32 : Shape := ⟨2, ![16384, 32]⟩
abbrev S128x128 : Shape := ⟨2, ![128, 128]⟩
abbrev S16384x64 : Shape := ⟨2, ![16384, 64]⟩
abbrev S1x64 : Shape := ⟨2, ![1, 64]⟩
abbrev S16384 : Shape := ⟨1, ![16384]⟩
abbrev S16384x1 : Shape := ⟨2, ![16384, 1]⟩
abbrev S1x1 : Shape := ⟨2, ![1, 1]⟩

abbrev nBuf : Space → Nat
  | .hbm => 35
  | .vmem => 10
  | .smem => 0
  | _ => 0

abbrev bufTy : (tb : Table) → Fin (tcTables nBuf tb) → BufTy
  | .hbm, ⟨0, _⟩ => ⟨S100000x16, .f32⟩
  | .hbm, ⟨1, _⟩ => ⟨S2x4194304, .i32⟩
  | .hbm, ⟨2, _⟩ => ⟨S32x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000x16, .bf16⟩
  | .hbm, ⟨9, _⟩ => ⟨S1x4194304, .i32⟩
  | .hbm, ⟨10, _⟩ => ⟨S4194304, .i32⟩
  | .hbm, ⟨11, _⟩ => ⟨S_, .i32⟩
  | .hbm, ⟨12, _⟩ => ⟨S4194304, .i32⟩
  | .hbm, ⟨13, _⟩ => ⟨S4194304, .i1⟩
  | .hbm, ⟨14, _⟩ => ⟨S_, .i32⟩
  | .hbm, ⟨15, _⟩ => ⟨S4194304, .i32⟩
  | .hbm, ⟨16, _⟩ => ⟨S4194304, .i32⟩
  | .hbm, ⟨17, _⟩ => ⟨S4194304, .i32⟩
  | .hbm, ⟨18, _⟩ => ⟨S4194304x1, .i32⟩
  | .hbm, ⟨19, _⟩ => ⟨S4194304x16, .bf16⟩
  | .hbm, ⟨20, _⟩ => ⟨S1x4194304, .i32⟩
  | .hbm, ⟨21, _⟩ => ⟨S4194304, .i32⟩
  | .hbm, ⟨22, _⟩ => ⟨S_, .i32⟩
  | .hbm, ⟨23, _⟩ => ⟨S4194304, .i32⟩
  | .hbm, ⟨24, _⟩ => ⟨S4194304, .i1⟩
  | .hbm, ⟨25, _⟩ => ⟨S_, .i32⟩
  | .hbm, ⟨26, _⟩ => ⟨S4194304, .i32⟩
  | .hbm, ⟨27, _⟩ => ⟨S4194304, .i32⟩
  | .hbm, ⟨28, _⟩ => ⟨S4194304, .i32⟩
  | .hbm, ⟨29, _⟩ => ⟨S4194304x1, .i32⟩
  | .hbm, ⟨30, _⟩ => ⟨S4194304x16, .bf16⟩
  | .hbm, ⟨31, _⟩ => ⟨S4194304x32, .bf16⟩
  | .hbm, ⟨32, _⟩ => ⟨S1x32, .f32⟩
  | .hbm, ⟨33, _⟩ => ⟨S32768x128, .f32⟩
  | .hbm, ⟨34, _⟩ => ⟨S4194304x1, .f32⟩
  | .local _ .vmem, ⟨0, _⟩ => ⟨S16384x32, .bf16⟩
  | .local _ .vmem, ⟨1, _⟩ => ⟨S16384x32, .bf16⟩
  | .local _ .vmem, ⟨2, _⟩ => ⟨S32x64, .f32⟩
  | .local _ .vmem, ⟨3, _⟩ => ⟨S64, .f32⟩
  | .local _ .vmem, ⟨4, _⟩ => ⟨S64x32, .f32⟩
  | .local _ .vmem, ⟨5, _⟩ => ⟨S32, .f32⟩
  | .local _ .vmem, ⟨6, _⟩ => ⟨S1x32, .f32⟩
  | .local _ .vmem, ⟨7, _⟩ => ⟨S1, .f32⟩
  | .local _ .vmem, ⟨8, _⟩ => ⟨S128x128, .f32⟩
  | .local _ .vmem, ⟨9, _⟩ => ⟨S128x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  slices_S2x4194304_S1x4194304_0_0 : S2x4194304.Slices ![0, 0] S1x4194304
  shapeCasts_S1x4194304_S4194304 : S1x4194304.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  slices_S2x4194304_S1x4194304_1_0 : S2x4194304.Slices ![1, 0] S1x4194304
  concatenates_S4194304x16_S4194304x16_S4194304x32_d1 : Shape.Concatenates [S4194304x16, S4194304x16] S4194304x32 1
  shapeCasts_S32x1_S1x32 : S32x1.ShapeCasts S1x32
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S16384x32 : S1x32.Broadcasts S16384x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  reduces_S16384x32_S16384 : S16384x32.Reduces [1] S16384
  shapeCasts_S16384_S16384x1 : S16384.ShapeCasts S16384x1
  inb_S1_S1_0 : ∀ a, (![0] : Fin 1 → Nat) a + S1.size a ≤ S1.size a
  h_S1 : 0 < S1.numel
  shapeCasts_S1_S1x1 : S1.ShapeCasts S1x1
  broadcasts_S1x1_S16384x1 : S1x1.Broadcasts S16384x1
  shapeCasts_S16384x1_S128x128 : S16384x1.ShapeCasts S128x128
  inb_S128x128_S128x128_0_0 : ∀ a, (![0, 0] : Fin 2 → Nat) a + S128x128.size a ≤ S128x128.size a
  h_S128x128 : 0 < S128x128.numel
  shapeCasts_S32768x128_S4194304x1 : S32768x128.ShapeCasts S4194304x1
  gather_S100000x16_S4194304x1_S4194304x16_1_0_n_n_0_1_116_wf : GatherDims.WF S100000x16 S4194304x1 S4194304x16 [1] [0] [] [0] [] 1 ![1, 16]
  dot_S16384x32_S32x64_S16384x64_1_0_0_1_n_n_wf : DotDims.WF S16384x32 S32x64 S16384x64 [1] [0] [0] [1] [] []
  dot_S16384x64_S64x32_S16384x32_1_0_0_1_n_n_wf : DotDims.WF S16384x64 S64x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S4194304x32.size a
  hwx0_0 : ∀ i : grid0.Coords, EltTy.bits .bf16 = 32 ∨ (Rect.block (s := S4194304x32) S16384x32.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S32768x128.size a
  hwx0_7 : ∀ i : grid0.Coords, EltTy.bits .f32 = 32 ∨ (Rect.block (s := S32768x128) S128x128.size (cc0_transform_7 i) (hinb0_7 i)).WholeWords (EltTy.packing .f32)

variable [Facts₀]

def gather_S100000x16_S4194304x1_S4194304x16_1_0_n_n_0_1_116 : GatherDims S100000x16 S4194304x1 S4194304x16 where
  offsetDims := [1]
  collapsedSliceDims := [0]
  operandBatchingDims := []
  startIndicesBatchingDims := []
  startIndexMap := [0]
  indexVectorDim := 1
  sliceSizes := ![1, 16]
  wf := gather_S100000x16_S4194304x1_S4194304x16_1_0_n_n_0_1_116_wf
def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf

abbrev win0_0 : Pipeline.Window sig grid0 :=
  Pipeline.Window.ofSpec (Memref.whole main_v19) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x4194304 : Shape := ⟨2, ![2, 4194304]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x4194304 : Shape := ⟨2, ![1, 4194304]⟩
abbrev S4194304 : Shape := ⟨1, ![4194304]⟩
abbrev S_ : Shape := ⟨0, ![]⟩
abbrev S4194304x1 : Shape := ⟨2, ![4194304, 1]⟩
abbrev S4194304x16 : Shape := ⟨2, ![4194304, 16]⟩
abbrev S4194304x32 : Shape := ⟨2, ![4194304, 32]⟩
abbrev S4194304x64 : Shape := ⟨2, ![4194304, 64]⟩
abbrev S1x64 : Shape := ⟨2, ![1, 64]⟩
abbrev S1x32 : Shape := ⟨2, ![1, 32]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x4194304, .i32⟩
  | .hbm, ⟨2, _⟩ => ⟨S32x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x4194304, .i32⟩
  | .hbm, ⟨9, _⟩ => ⟨S4194304, .i32⟩
  | .hbm, ⟨10, _⟩ => ⟨S_, .i32⟩
  | .hbm, ⟨11, _⟩ => ⟨S4194304, .i32⟩
  | .hbm, ⟨12, _⟩ => ⟨S4194304, .i1⟩
  | .hbm, ⟨13, _⟩ => ⟨S_, .i32⟩
  | .hbm, ⟨14, _⟩ => ⟨S4194304, .i32⟩
  | .hbm, ⟨15, _⟩ => ⟨S4194304, .i32⟩
  | .hbm, ⟨16, _⟩ => ⟨S4194304, .i32⟩
  | .hbm, ⟨17, _⟩ => ⟨S4194304x1, .i32⟩
  | .hbm, ⟨18, _⟩ => ⟨S4194304x16, .f32⟩
  | .hbm, ⟨19, _⟩ => ⟨S1x4194304, .i32⟩
  | .hbm, ⟨20, _⟩ => ⟨S4194304, .i32⟩
  | .hbm, ⟨21, _⟩ => ⟨S_, .i32⟩
  | .hbm, ⟨22, _⟩ => ⟨S4194304, .i32⟩
  | .hbm, ⟨23, _⟩ => ⟨S4194304, .i1⟩
  | .hbm, ⟨24, _⟩ => ⟨S_, .i32⟩
  | .hbm, ⟨25, _⟩ => ⟨S4194304, .i32⟩
  | .hbm, ⟨26, _⟩ => ⟨S4194304, .i32⟩
  | .hbm, ⟨27, _⟩ => ⟨S4194304, .i32⟩
  | .hbm, ⟨28, _⟩ => ⟨S4194304x1, .i32⟩
  | .hbm, ⟨29, _⟩ => ⟨S4194304x16, .f32⟩
  | .hbm, ⟨30, _⟩ => ⟨S4194304x32, .f32⟩
  | .hbm, ⟨31, _⟩ => ⟨S4194304x64, .f32⟩
  | .hbm, ⟨32, _⟩ => ⟨S1x64, .f32⟩
  | .hbm, ⟨33, _⟩ => ⟨S4194304x64, .f32⟩
  | .hbm, ⟨34, _⟩ => ⟨S4194304x64, .f32⟩
  | .hbm, ⟨35, _⟩ => ⟨S_, .f32⟩
  | .hbm, ⟨36, _⟩ => ⟨S4194304x64, .f32⟩
  | .hbm, ⟨37, _⟩ => ⟨S4194304x64, .f32⟩
  | .hbm, ⟨38, _⟩ => ⟨S4194304x32, .f32⟩
  | .hbm, ⟨39, _⟩ => ⟨S1x32, .f32⟩
  | .hbm, ⟨40, _⟩ => ⟨S4194304x32, .f32⟩
  | .hbm, ⟨41, _⟩ => ⟨S4194304x32, .f32⟩
  | .hbm, ⟨42, _⟩ => ⟨S_, .f32⟩
  | .hbm, ⟨43, _⟩ => ⟨S4194304x32, .f32⟩
  | .hbm, ⟨44, _⟩ => ⟨S4194304x32, .f32⟩
  | .hbm, ⟨45, _⟩ => ⟨S4194304x1, .f32⟩
  | .hbm, ⟨46, _⟩ => ⟨S1x1, .f32⟩
  | .hbm, ⟨47, _⟩ => ⟨S4194304x1, .f32⟩
  | .hbm, ⟨48, _⟩ => ⟨S4194304x1, .f32⟩
  | .hbm, ⟨49, _⟩ => ⟨S4194304x1, .f32⟩
  | .hbm, ⟨50, _⟩ => ⟨S4194304x1, .f32⟩
  | .hbm, ⟨51, _⟩ => ⟨S_, .f32⟩
  | .hbm, ⟨52, _⟩ => ⟨S4194304x1, .f32⟩
  | .hbm, ⟨53, _⟩ => ⟨S4194304x1, .f32⟩
  | .hbm, ⟨54, _⟩ => ⟨S_, .f32⟩
  | .hbm, ⟨55, _⟩ => ⟨S4194304x1, .f32⟩
  | .hbm, ⟨56, _⟩ => ⟨S4194304x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  slices_S2x4194304_S1x4194304_1_0 : S2x4194304.Slices ![1, 0] S1x4194304
  concatenates_S4194304x16_S4194304x16_S4194304x32_d1 : Shape.Concatenates [S4194304x16, S4194304x16] S4194304x32 1
  bcast_S64_S1x64_1 : S64.BroadcastsInDim S1x64 (![1] : Fin 1 → Fin S1x64.rank)
  bcast_S1x64_S4194304x64_0_1 : S1x64.BroadcastsInDim S4194304x64 (![0, 1] : Fin 2 → Fin S4194304x64.rank)
  bcast_S_S4194304x64 : S_.BroadcastsInDim S4194304x64 (![] : Fin 0 → Fin S4194304x64.rank)
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  bcast_S_S4194304x32 : S_.BroadcastsInDim S4194304x32 (![] : Fin 0 → Fin S4194304x32.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S4194304x1 : S_.BroadcastsInDim S4194304x1 (![] : Fin 0 → Fin S4194304x1.rank)
  gather_S100000x16_S4194304x1_S4194304x16_1_0_n_n_0_1_116_wf : GatherDims.WF S100000x16 S4194304x1 S4194304x16 [1] [0] [] [0] [] 1 ![1, 16]
  dot_S4194304x32_S32x64_S4194304x64_1_0_0_1_n_n_wf : DotDims.WF S4194304x32 S32x64 S4194304x64 [1] [0] [0] [1] [] []
  dot_S4194304x64_S64x32_S4194304x32_1_0_0_1_n_n_wf : DotDims.WF S4194304x64 S64x32 S4194304x32 [1] [0] [0] [1] [] []
  dot_S4194304x32_S32x1_S4194304x1_1_0_0_1_n_n_wf : DotDims.WF S4194304x32 S32x1 S4194304x1 [1] [0] [0] [1] [] []

variable [Facts₀]

def gather_S100000x16_S4194304x1_S4194304x16_1_0_n_n_0_1_116 : GatherDims S100000x16 S4194304x1 S4194304x16 where
  offsetDims := [1]
  collapsedSliceDims := [0]
  operandBatchingDims := []
  startIndicesBatchingDims := []
  startIndexMap := [0]
  indexVectorDim := 1
  sliceSizes := ![1, 16]
  wf := gather_S100000x16_S4194304x1_S4194304x16_1_0_n_n_0_1_116_wf
def dot_S4194304x32_S32x64_S4194304x64_1_0_0_1_n_n : DotDims S4194304x32 S32x64 S4194304x64 where
  lhsContracting := [1]
  rhsContracting := [0]
  lhsNonContracting := [0]
  rhsNonContracting := [1]
  lhsBatch := []
  rhsBatch := []
  wf := dot_S4194304x32_S32x64_S4194304x64_1_0_0_1_n_n_wf
def dot_S4194304x64_S64x32_S4194304x32_1_0_0_1_n_n : DotDims S4194304x64 S64x32 S4194304x32 where
  lhsContracting := [1]
  rhsContracting := [0]
  lhsNonContracting := [0]
  rhsNonContracting := [1]
  lhsBatch := []
  rhsBatch := []
  wf := dot_S4194304x64_S64x32_S4194304x32_1_0_0_1_n_n_wf
def dot_S4194304x32_S32x1_S4194304x1_1_0_0_1_n_n : DotDims S4194304x32 S32x1 S4194304x1 where
  lhsContracting := [1]
  rhsContracting := [0]
  lhsNonContracting := [0]
  rhsNonContracting := [1]
  lhsBatch := []
  rhsBatch := []
  wf := dot_S4194304x32_S32x1_S4194304x1_1_0_0_1_n_n_wf

class Facts : Prop extends Facts₀ where

variable [Facts]
-- ==== Proof.EdgeScore.lean ====
import Idealize.ShloMosaic.Lib.ValueIdx
import Idealize.ShloMosaic.PureOps.Ideal.Laws

/-!
# The score of one edge

An edge carries a row of 32 features (the embeddings of its two end nodes, side by side). Three dense layers
turn the row into one probability:

* 64 hidden values, each the sum over the 32 features of feature times weight, plus a bias, cut below at zero;
* 32 hidden values computed the same way from the 64;
* one number, the sum over the 32 of value times weight, plus a bias, sent through 1 / (1 + e^(-y)).

All of this is arithmetic on ONE row: nothing mixes two edges. So the array of all scores is this one function applied
row by row, however the rows are grouped into tiles and however the scores are laid out afterwards.
Sums and products are taken on the extended reals in the order written here, which is the order both programs use.
-/

noncomputable section

namespace Cert.EdgeScore

open Idealize.ShloMosaic Idealize.ShloMosaic.ValueIdx
open scoped BigOperators

/-- The float word of 0.0, the floor of both rectifiers. It is never evaluated: both programs write the same word. -/
abbrev floor0 : EReal := Ideal.ofBits .f32 0x00000000#32

/-- One edge's score from its feature row x: two rectified dense layers and a logistic output unit. -/
def score (x : Fin 32 → EReal) (w1 : Fin 32 → Fin 64 → EReal) (b1 : Fin 64 → EReal) (w2 : Fin 64 → Fin 32 → EReal)
    (b2 : Fin 32 → EReal) (w3 : Fin 32 → EReal) (b3 : EReal) : EReal :=
  Ideal.logistic
    ((∑ k : Fin 32, max ((∑ j : Fin 64, max ((∑ i : Fin 32, x i * w1 i j) + b1 j) floor0 * w2 j k) + b2 k) floor0 * w3 k) + b3)

/-- The score depends on its seven arguments only through their values. -/
theorem score_congr {x x' : Fin 32 → EReal} {w1 w1' : Fin 32 → Fin 64 → EReal} {b1 b1' : Fin 64 → EReal}
    {w2 w2' : Fin 64 → Fin 32 → EReal} {b2 b2' : Fin 32 → EReal} {w3 w3' : Fin 32 → EReal} {b3 b3' : EReal}
    (hx : ∀ i, x i = x' i) (h1 : ∀ i j, w1 i j = w1' i j) (hb1 : ∀ j, b1 j = b1' j) (h2 : ∀ j k, w2 j k = w2' j k)
    (hb2 : ∀ k, b2 k = b2' k) (h3 : ∀ k, w3 k = w3' k) (hb3 : b3 = b3') :
    score x w1 b1 w2 b2 w3 b3 = score x' w1' b1' w2' b2' w3' b3' := by
  obtain rfl : x = x' := funext hx
  obtain rfl : w1 = w1' := funext fun i => funext (h1 i)
  obtain rfl : b1 = b1' := funext hb1
  obtain rfl : w2 = w2' := funext fun j => funext (h2 j)
  obtain rfl : b2 = b2' := funext hb2
  obtain rfl : w3 = w3' := funext h3
  obtain rfl := hb3
  rfl

/-- All edges' scores, as a column: entry (e, 0) is the score of row e of the feature array. The weights are read
    from their arrays in the shapes the model declares them: [32, 64], [64], [64, 32], [32], [32, 1], [1]. -/
def scores (feats : (⟨2, ![4194304, 32]⟩ : Shape).Idx → EReal) (W1 : (⟨2, ![32, 64]⟩ : Shape).Idx → EReal)
    (B1 : (⟨1, ![64]⟩ : Shape).Idx → EReal) (W2 : (⟨2, ![64, 32]⟩ : Shape).Idx → EReal) (B2 : (⟨1, ![32]⟩ : Shape).Idx → EReal)
    (W3 : (⟨2, ![32, 1]⟩ : Shape).Idx → EReal) (B3 : (⟨1, ![1]⟩ : Shape).Idx → EReal) :
    (⟨2, ![4194304, 1]⟩ : Shape).Idx → EReal :=
  fun i => score (fun k => feats (ix2 (i 0) k)) (fun a j => W1 (ix2 a j)) (fun j => B1 (ix1 j)) (fun j k => W2 (ix2 j k))
    (fun k => B2 (ix1 k)) (fun k => W3 (ix2 k (0 : Fin 1))) (B3 (ix1 (0 : Fin 1)))

/-- The float word of 1.0 denotes the real number one. -/
theorem one_f32 : Ideal.ofBits .f32 0x3F800000#32 = 1 := by
  simp [Ideal.ofBits, Ideal.ieee, -EReal.coe_mul]; norm_num

/-- The logistic function spelt out with the word of 1.0 in both places, as a host program writes it:
    1.0 / (1.0 + e^(-y)) is the logistic function of y, at every extended real. -/
theorem logistic_spelt (y : EReal) :
    Ideal.div (Ideal.ofBits .f32 0x3F800000#32) (Ideal.ofBits .f32 0x3F800000#32 + Ideal.exp (-y)) = Ideal.logistic y := by
  rw [one_f32]; rfl

end Cert.EdgeScore

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibReluDense.lean ====
import Idealize.ShloMosaic.Lib.ValueLayout
import Idealize.ShloMosaic.PureOps.Ideal.Laws
import proofs.«133788_j21251498180835_2_alg».proof.Proof.LibPlainDot

/-!
# A rectified dense layer on a tile of rows, read at an index

A tile of M rows with K features each is multiplied by a K-by-N weight matrix into a zero accumulator; a bias
vector of length N is stood up as one row and copied down all M rows and added; the result is cut below at a floor z.
Read at row p and column q over the extended reals this is

  max ((sum over k < K of X (p, k) * W (k, q)) + b q) z,

whatever M, K and N are and whatever float formats the two operands are stored in: entry (p, q) depends on row p
of the tile alone, so it does not matter how many rows the tile has or which rows of a larger array they are.
-/

noncomputable section

namespace Cert.LibReluDense

open Idealize.ShloMosaic Idealize.ShloMosaic.ValueIdx Cert.LibPlainDot
open scoped BigOperators

/-- The matrix unit's rows-by-columns product into a zero accumulator, plus a bias vector spread down the rows,
    cut below at z: entry (p, q) is the dot product of row p with column q, plus entry q of the bias, or z if that
    is larger. -/
theorem relu_dense_apply {M K N : ℕ} {φl φr : FTy} (d : DotDims ⟨2, ![M, K]⟩ ⟨2, ![K, N]⟩ ⟨2, ![M, N]⟩) (hd : Plain d)
    (prec : Option ContractPrecision) (X : FVec Ideal ⟨2, ![M, K]⟩ φl) (W : FVec Ideal ⟨2, ![K, N]⟩ φr)
    (b : FVec Ideal ⟨1, ![N]⟩ .f32) (hrow : (⟨1, ![N]⟩ : Shape).ShapeCasts ⟨2, ![1, N]⟩)
    (hdown : (⟨2, ![1, N]⟩ : Shape).Broadcasts ⟨2, ![M, N]⟩) (z : Ideal .f32) (p : Fin M) (q : Fin N) :
    maximumf (addf (FloatOps.matmul d prec X W (constant ⟨2, ![M, N]⟩ .f32 0x00000000#32))
        (broadcastTo ⟨2, ![M, N]⟩ (shapeCast ⟨2, ![1, N]⟩ b hrow) hdown)) (broadcast ⟨2, ![M, N]⟩ z) (ix2 p q)
      = max ((∑ k : Fin K, X (ix2 p k) * W (ix2 k q)) + b (ix1 q)) z := by
  rw [maximumf_apply, addf_apply, broadcast_apply, matmul_zero_apply d hd, broadcastTo_1b_ab_apply, shapeCast_a_1a_apply]

end Cert.LibReluDense

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.TileScores.lean ====
import proofs.«133788_j21251498180835_2_alg».proof.Proof.Gen.KernelIdeal.Skeleton
import proofs.«133788_j21251498180835_2_alg».proof.Proof.EdgeScore
import proofs.«133788_j21251498180835_2_alg».proof.Proof.LibReluDense
import proofs.«133788_j21251498180835_2_alg».proof.Proof.LibTileLayout
import Idealize.ShloMosaic.Lib.ValueLayout
import Idealize.ShloMosaic.Lib.Pipeline.Value

/-!
# One tile of scores

The kernel body takes 16384 consecutive feature rows and leaves a 128-by-128 tile of numbers. Entry (a, c) of the
tile is the score of the row numbered 128 * a + c among the 16384: the body computes the scores as a column of length
16384 and then lays the column out row-major in the tile.

Reading the body's result at (a, c): the last re-laying picks the column's entry 128 * a + c; the logistic unit, the
bias and the lane sum act on that one row; the two rectified dense layers are read row by row (the general lemma on a
rectified dense layer); the changes of float format in between are the identity on the extended reals.
-/

noncomputable section

namespace Cert.KernelIdeal.Tile

open Cert.KernelIdeal Cert.KernelIdeal.Gen Idealize.ShloMosaic Idealize.ShloMosaic.ValueIdx Cert.EdgeScore
open scoped BigOperators

/-- The row, among a tile's 16384, whose score lands at entry (a, c) of the tile. -/
abbrev rowOf (a c : Fin 128) : Fin 16384 := ⟨a.val * 128 + c.val, by have := a.isLt; have := c.isLt; omega⟩

/-- Both matrix products of the body contract the left operand's columns with the right operand's rows. -/
theorem plain1 : LibPlainDot.Plain dot_S16384x32_S32x64_S16384x64_1_0_0_1_n_n := ⟨rfl, rfl, rfl, rfl, rfl, rfl⟩
theorem plain2 : LibPlainDot.Plain dot_S16384x64_S64x32_S16384x32_1_0_0_1_n_n := ⟨rfl, rfl, rfl, rfl, rfl, rfl⟩

/-- The logistic unit acts entry by entry. -/
theorem logistic_apply {s : Shape} {φ : FTy} (x : FVec Ideal s φ) (i : s.Idx) : logistic x i = Ideal.logistic (x i) := rfl

/-- The output unit on a tile of hidden rows H: each row's products with the weight row w summed along the lanes,
    stood up as a column, the one bias added to every entry, the logistic function applied. At (r, u) this is the
    logistic function of the dot product of row r with w, plus the bias. -/
theorem unit_apply (H : FVec Ideal S16384x32 .f32) (w : Vec Ideal S1x32 .f32) (b : Vec Ideal S1 .f32) (r : Fin 16384) (u : Fin 1) :
    logistic (addf
        (shapeCast S16384x1
          (multiReduction .add [1] S16384 (mulf H (broadcastTo S16384x32 (shapeCast S1x32 w shapeCasts_S1x32_S1x32) broadcasts_S1x32_S16384x32))
            0x00000000#32 reduces_S16384x32_S16384 (.inl rfl) rfl)
          shapeCasts_S16384_S16384x1)
        (broadcastTo S16384x1 (shapeCast S1x1 b shapeCasts_S1_S1x1) broadcasts_S1x1_S16384x1)) (ix2 r u)
      = Ideal.logistic ((∑ k : Fin 32, H (ix2 r k) * w (ix2 (0 : Fin 1) k)) + b (ix1 (0 : Fin 1))) := by
  rw [logistic_apply, addf_apply]
  refine congrArg Ideal.logistic (congrArg₂ (· + ·) ?_ ?_)
  · refine (TileLayout.shapeCast_a_a1_apply _ _ r u).trans ?_
    refine (TileLayout.sum_axis1_apply _ _ _ _ _ r).trans ?_
    refine Finset.sum_congr rfl fun k _ => ?_
    rw [mulf_apply, broadcastTo_1b_ab_apply, shapeCast_self]
  · exact (TileLayout.broadcastTo_11_ab_apply _ _ r u).trans (shapeCast_a_1a_apply _ _ (0 : Fin 1) (0 : Fin 1))

/-- THE TILE: entry (a, c) of the body's result is the score of row 128 * a + c of the feature block, with the
    weights read from the blocks the body loads (the last layer's weights as a row). -/
theorem tile_apply (x0 : Vec Ideal S16384x32 .bf16) (x1 : Vec Ideal S32x64 .f32) (x2 : Vec Ideal S64 .f32)
    (x3 : Vec Ideal S64x32 .f32) (x4 : Vec Ideal S32 .f32) (x5 : Vec Ideal S1x32 .f32) (x6 : Vec Ideal S1 .f32) (a c : Fin 128) :
    k0_pay1 (F := Ideal) x0 x1 x2 x3 x4 x5 x6 (ix2 a c)
      = score (fun i => x0 (ix2 (rowOf a c) i)) (fun i j => x1 (ix2 i j)) (fun j => x2 (ix1 j)) (fun j k => x3 (ix2 j k))
          (fun k => x4 (ix1 k)) (fun k => x5 (ix2 (0 : Fin 1) k)) (x6 (ix1 (0 : Fin 1))) := by
  unfold k0_pay1 score
  dsimp only
  rw [shapeCast_apply _ shapeCasts_S16384x1_S128x128 (ix2 a c) (ix2 (rowOf a c) (0 : Fin 1)) (by
    rw [Shape.rowMajor_val_two, Shape.rowMajor_val_two]
    show (a.val * 128 + c.val) * 1 + 0 = a.val * 128 + c.val
    omega)]
  rw [unit_apply]
  refine congrArg (fun s => Ideal.logistic (s + x6 (ix1 (0 : Fin 1)))) (Finset.sum_congr rfl fun k _ => ?_)
  refine congrArg (· * x5 (ix2 (0 : Fin 1) k)) ?_
  rw [LibReluDense.relu_dense_apply _ plain2]
  refine congrArg (fun s => max (s + x4 (ix1 k)) floor0) (Finset.sum_congr rfl fun j _ => ?_)
  refine congrArg (· * x3 (ix2 j k)) ?_
  rw [truncf_apply, LibReluDense.relu_dense_apply _ plain1, shapeCast_self]
  rfl

end Cert.KernelIdeal.Tile

end
-- ==== Proof.ScoreTiles.lean ====
import proofs.«133788_j21251498180835_2_alg».proof.Proof.Gen.KernelIdeal.Frame
import proofs.«133788_j21251498180835_2_alg».proof.Proof.TileScores

/-!
# From tiles to the whole array of scores

The kernel runs at 256 grid points. Point t reads feature rows 16384 * t to 16384 * t + 16383 and writes rows
128 * t to 128 * t + 127 of a 32768-by-128 array; the six weight arrays are read whole at every point. By the tile
lemma, entry (a, c) of what point t writes is the score of feature row 16384 * t + 128 * a + c. That is row
128 * (128 * t + a) + c: the number the entry's own position (128 * t + a, c) in the big array gives, read row-major.
So every point writes a block of ONE function of the arrays the region finds, the function that puts at (r, c) the
score of feature row 128 * r + c; the 256 blocks tile the array (row r lies in the block of point r / 128), so after
the run the array is that function.
-/

noncomputable section

namespace Cert.KernelIdeal.Tiles

open Cert.KernelIdeal Cert.KernelIdeal.Gen Idealize.ShloMosaic Idealize.ShloMosaic.TcCoe Idealize.SL.Sem
open Idealize.ShloMosaic.ValueIdx Cert.EdgeScore
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The feature row whose score sits at position i of the 32768-by-128 array: the position read row-major. -/
abbrev edgeAt (i : S32768x128.Idx) : Fin 4194304 :=
  ⟨(i 0).val * 128 + (i 1).val, by have h0 : (i 0).val < 32768 := idx2_lt0 i; have h1 : (i 1).val < 128 := idx2_lt1 i; omega⟩

/-- The scores laid out 128 to a row: entry i is the score of feature row edgeAt i; the last layer's weights are
    read from a [1, 32] row. -/
def laidOut (feats : S4194304x32.Idx → EReal) (W1 : S32x64.Idx → EReal) (B1 : S64.Idx → EReal) (W2 : S64x32.Idx → EReal)
    (B2 : S32.Idx → EReal) (W3r : S1x32.Idx → EReal) (B3 : S1.Idx → EReal) : S32768x128.Idx → EReal :=
  fun i => score (fun k => feats (ix2 (edgeAt i) k)) (fun a j => W1 (ix2 a j)) (fun j => B1 (ix1 j)) (fun j k => W2 (ix2 j k))
    (fun k => B2 (ix1 k)) (fun k => W3r (ix2 (0 : Fin 1) k)) (B3 (ix1 (0 : Fin 1)))

/-- The printed index maps, decided over the 256 points: the feature window and the output window are at block t
    along the rows; every weight window stays at block zero. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## Each window's block, read off the array the region finds -/

/-- Row r of point t's feature block is row 16384 * t + r of the feature array. -/
theorem feats_blk (c : Dev nD) (t : Fin cfg0.N) (r : Fin 16384) (i : Fin 32) (e : Fin 4194304) (he : e.val = t.val * 16384 + r.val) :
    iblk m c 0 t (ix2 r i) = V m c main_v19 (ix2 e i) := by
  obtain ⟨e0, e1, -⟩ := idx_facts t
  show V m c main_v19 (((cfg0.win 0).blk t).view.emb (ix2 r i)) = V m c main_v19 (ix2 e i)
  refine congrArg (V m c main_v19) (funext fun a => Fin.ext ?_)
  match a with
  | ⟨0, _⟩ => show win0_0.index t (0 : Fin 2) * 16384 + 1 * r.val = e.val; omega
  | ⟨1, _⟩ => show win0_0.index t (1 : Fin 2) * 32 + 1 * i.val = i.val; omega

theorem w1_blk (c : Dev nD) (t : Fin cfg0.N) (i : Fin 32) (j : Fin 64) : iblk m c 1 t (ix2 i j) = V m c main_arg2 (ix2 i j) := by
  obtain ⟨-, -, -, -, e0, e1, -⟩ := idx_facts t
  show V m c main_arg2 (((cfg0.win 1).blk t).view.emb (ix2 i j)) = V m c main_arg2 (ix2 i j)
  refine congrArg (V m c main_arg2) (funext fun a => Fin.ext ?_)
  match a with
  | ⟨0, _⟩ => show win0_1.index t (0 : Fin 2) * 32 + 1 * i.val = i.val; omega
  | ⟨1, _⟩ => show win0_1.index t (1 : Fin 2) * 64 + 1 * j.val = j.val; omega

theorem b1_blk (c : Dev nD) (t : Fin cfg0.N) (j : Fin 64) : iblk m c 2 t (ix1 j) = V m c main_arg3 (ix1 j) := by
  obtain ⟨-, -, -, -, -, -, e0, -⟩ := idx_facts t
  show V m c main_arg3 (((cfg0.win 2).blk t).view.emb (ix1 j)) = V m c main_arg3 (ix1 j)
  refine congrArg (V m c main_arg3) (funext fun a => Fin.ext ?_)
  match a with
  | ⟨0, _⟩ => show win0_2.index t (0 : Fin 1) * 64 + 1 * j.val = j.val; omega

theorem w2_blk (c : Dev nD) (t : Fin cfg0.N) (j : Fin 64) (k : Fin 32) : iblk m c 3 t (ix2 j k) = V m c main_arg4 (ix2 j k) := by
  obtain ⟨-, -, -, -, -, -, -, e0, e1, -⟩ := idx_facts t
  show V m c main_arg4 (((cfg0.win 3).blk t).view.emb (ix2 j k)) = V m c main_arg4 (ix2 j k)
  refine congrArg (V m c main_arg4) (funext fun a => Fin.ext ?_)
  match a with
  | ⟨0, _⟩ => show win0_3.index t (0 : Fin 2) * 64 + 1 * j.val = j.val; omega
  | ⟨1, _⟩ => show win0_3.index t (1 : Fin 2) * 32 + 1 * k.val = k.val; omega

theorem b2_blk (c : Dev nD) (t : Fin cfg0.N) (k : Fin 32) : iblk m c 4 t (ix1 k) = V m c main_arg5 (ix1 k) := by
  obtain ⟨-, -, -, -, -, -, -, -, -, e0, -⟩ := idx_facts t
  show V m c main_arg5 (((cfg0.win 4).blk t).view.emb (ix1 k)) = V m c main_arg5 (ix1 k)
  refine congrArg (V m c main_arg5) (funext fun a => Fin.ext ?_)
  match a with
  | ⟨0, _⟩ => show win0_4.index t (0 : Fin 1) * 32 + 1 * k.val = k.val; omega

theorem w3_blk (c : Dev nD) (t : Fin cfg0.N) (u : Fin 1) (k : Fin 32) : iblk m c 5 t (ix2 u k) = V m c main_v20 (ix2 u k) := by
  obtain ⟨-, -, -, -, -, -, -, -, -, -, e0, e1, -⟩ := idx_facts t
  show V m c main_v20 (((cfg0.win 5).blk t).view.emb (ix2 u k)) = V m c main_v20 (ix2 u k)
  refine congrArg (V m c main_v20) (funext fun a => Fin.ext ?_)
  match a with
  | ⟨0, _⟩ => show win0_5.index t (0 : Fin 2) * 1 + 1 * u.val = u.val; omega
  | ⟨1, _⟩ => show win0_5.index t (1 : Fin 2) * 32 + 1 * k.val = k.val; omega

theorem b3_blk (c : Dev nD) (t : Fin cfg0.N) (u : Fin 1) : iblk m c 6 t (ix1 u) = V m c main_arg7 (ix1 u) := by
  obtain ⟨-, -, -, -, -, -, -, -, -, -, -, -, e0⟩ := idx_facts t
  show V m c main_arg7 (((cfg0.win 6).blk t).view.emb (ix1 u)) = V m c main_arg7 (ix1 u)
  refine congrArg (V m c main_arg7) (funext fun a => Fin.ext ?_)
  match a with
  | ⟨0, _⟩ => show win0_6.index t (0 : Fin 1) * 1 + 1 * u.val = u.val; omega

/-! ## What a point writes back, and the array after the run -/

/-- WHAT POINT t WRITES BACK is block t of the laid-out scores over the arrays the region finds. -/
theorem flushed_eq (c : Dev nD) (t : Fin cfg0.N) :
    (dats m 0 c).flushed 7 t = ((cfg0.win 7).blk t).view.read (Elt Ideal)
      (laidOut (V m c main_v19) (V m c main_arg2) (V m c main_arg3) (V m c main_arg4) (V m c main_arg5) (V m c main_v20) (V m c main_arg7)) := by
  show (cfg0.win 7).cut (grid0.coords t) ((dats m 0 c).after 7 t) = _
  rw [after0_7]
  unfold out0_7
  rw [View.canon_unit_zero zeros2]
  simp only [View.ld_unit_zero (S := S16384x32) zeros2, View.ld_unit_zero (S := S32x64) zeros2, View.ld_unit_zero (S := S64) zeros1,
    View.ld_unit_zero (S := S64x32) zeros2, View.ld_unit_zero (S := S32) zeros1, View.ld_unit_zero (S := S1x32) zeros2,
    View.ld_unit_zero (S := S1) zeros1]
  obtain ⟨-, -, e0, e1, -⟩ := idx_facts t
  funext j
  obtain ⟨a, b, rfl⟩ : ∃ (a b : Fin 128), j = ix2 a b := ⟨j 0, j 1, eq_ix2 j⟩
  show k0_pay1 (iblk m c 0 t) (iblk m c 1 t) (iblk m c 2 t) (iblk m c 3 t) (iblk m c 4 t) (iblk m c 5 t) (iblk m c 6 t) (ix2 a b)
    = laidOut (V m c main_v19) (V m c main_arg2) (V m c main_arg3) (V m c main_arg4) (V m c main_arg5) (V m c main_v20) (V m c main_arg7)
        (((cfg0.win 7).blk t).view.emb (ix2 a b))
  refine (Tile.tile_apply (iblk m c 0 t) (iblk m c 1 t) (iblk m c 2 t) (iblk m c 3 t) (iblk m c 4 t) (iblk m c 5 t) (iblk m c 6 t) a b).trans ?_
  unfold laidOut
  refine score_congr (fun i => feats_blk m c t (Tile.rowOf a b) i _ ?_) (fun i j => w1_blk m c t i j) (fun j => b1_blk m c t j)
    (fun j k => w2_blk m c t j k) (fun k => b2_blk m c t k) (fun k => w3_blk m c t 0 k) (b3_blk m c t 0)
  show (win0_7.index t (0 : Fin 2) * 128 + 1 * a.val) * 128 + (win0_7.index t (1 : Fin 2) * 128 + 1 * b.val) = t.val * 16384 + (a.val * 128 + b.val)
  omega

/-- An index of the array is in point t's block iff each coordinate is in the block's range on its axis. -/
theorem mem_blk (t : Fin cfg0.N) (i : S32768x128.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v21).slice (win0_7.rect t)).set ↔ _
  rw [View.set_slice_whole, Rect.mem_set_unit]
  exact Iff.rfl

/-- The blocks tile the array: row r lies in the block of point r / 128. -/
theorem cover (i : S32768x128.Idx) : ∃ t : Fin cfg0.N, (cfg0.win 7).flush t = true ∧ i ∈ ((cfg0.win 7).blk t).view.set := by
  have h0 : (i 0).val < 32768 := idx2_lt0 i
  have h1 : (i 1).val < 128 := idx2_lt1 i
  have hN : (i 0).val / 128 < cfg0.N := by rw [show cfg0.N = 256 from N_0]; omega
  refine ⟨⟨(i 0).val / 128, hN⟩, flush0_7 _, ?_⟩
  rw [mem_blk]
  obtain ⟨-, -, e0, e1, -⟩ := idx_facts ⟨(i 0).val / 128, hN⟩
  intro a
  match a with
  | ⟨0, _⟩ =>
    show win0_7.index ⟨(i 0).val / 128, hN⟩ (0 : Fin 2) * 128 ≤ (i 0).val ∧ (i 0).val < win0_7.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_7.index ⟨(i 0).val / 128, hN⟩ (1 : Fin 2) * 128 ≤ (i 1).val ∧ (i 1).val < win0_7.index ⟨(i 0).val / 128, hN⟩ (1 : Fin 2) * 128 + 128
    rw [e1]; omega

/-- THE ARRAY after the run: the laid-out scores over the arrays the region finds. -/
theorem final (c : Dev nD) : (dats m 0 c).arrAt 7 cfg0.N
    = laidOut (V m c main_v19) (V m c main_arg2) (V m c main_arg3) (V m c main_arg4) (V m c main_arg5) (V m c main_v20) (V m c main_arg7) :=
  (dats m 0 c).arrAt_eq_of_cover 7 _ (fun t _ => flushed_eq m c t) cover

end Cert.KernelIdeal.Tiles

end
-- ==== Proof.KernelRun.lean ====
import proofs.«133788_j21251498180835_2_alg».proof.Proof.ScoreTiles
import proofs.«133788_j21251498180835_2_alg».proof.Proof.Gen.ReferenceIdeal.Read

/-!
# The kernel program computes the score of every edge

Around the region the program does three things on the host. Before it: it gathers the two end nodes' embeddings of
every edge and sets them side by side (the feature array), and it re-lays the last layer's [32, 1] weights as a [1, 32]
row. After it: it re-lays the region's 32768-by-128 array as one column of 4194304 entries.

* The feature array is the very term the reference builds from the same two arguments: the only difference, a change
  of float format before the gather, is the identity on the extended reals.
* Entry k of the weight row is entry (k, 0) of the weight column.
* Entry (e, 0) of the column is entry (e / 128, e % 128) of the region's array, which holds the score of feature
  row 128 * (e / 128) + e % 128 = e.

So the program's result is the column of all edges' scores over the reference's own feature array.
-/

noncomputable section

namespace Cert.KernelIdeal.Scores

open Cert.KernelIdeal Cert.KernelIdeal.Gen Idealize.ShloMosaic Idealize.ShloMosaic.TcCoe Idealize.SL.Sem
open Idealize.ShloMosaic.ValueIdx Cert.EdgeScore Cert.KernelIdeal.Tiles
open Idealize.ShloMosaic.Pipeline (Dat)

variable (m : (ℓ : Loc nD τ sig) → Buf (Elt Ideal) ℓ) (ρ : Dev nD → PrngReg)

/-- The feature array the region finds is the reference's feature array of the same two arguments. -/
theorem feats_eq (c : Dev nD) :
    V m c main_v19 = Cert.ReferenceIdeal.Read.val_main_v18 (F := Ideal) (m ((c : Thread nD τ).loc main_arg0)) (m ((c : Thread nD τ).loc main_arg1)) := by
  show StableHlo.after hostOps0 (fun b => m (c, b)) (Proc.devRef .tc main_v19) = _
  after_results_simp
  rfl

/-- The weight row the region finds is the weight column re-laid. -/
theorem w3row_eq (c : Dev nD) :
    V m c main_v20 = shapeCast S1x32 (m ((c : Thread nD τ).loc main_arg6)) shapeCasts_S32x1_S1x32 := by
  show StableHlo.after hostOps0 (fun b => m (c, b)) (Proc.devRef .tc main_v20) = _
  after_results_simp
  rfl

/-- The program's result after the host line that follows the region: the region's array re-laid as a column. -/
theorem tail_eq (c : Dev nD) :
    Pipeline.afterTail₀ cfgs (dats m) 0 (V0 m) [hostOps1] c main_v22
      = shapeCast S4194304x1 ((dats m 0 c).arrAt 7 cfg0.N) shapeCasts_S32768x128_S4194304x1 := by
  unfold Pipeline.afterTail₀
  show StableHlo.after hostOps1 _ (Proc.devRef .tc main_v22) = _
  after_results
  rw [Pipeline.withArrays_arr spec0 launch0.win.arr_inj c _ _ 7]
  rfl

/-- The laid-out scores re-laid as a column are the column of scores, the weight row being the weight column
    re-laid: position (e, 0) of the column is position (e / 128, e % 128) of the layout, where the score of feature
    row e sits. -/
theorem relaid (feats : S4194304x32.Idx → EReal) (W1 : S32x64.Idx → EReal) (B1 : S64.Idx → EReal) (W2 : S64x32.Idx → EReal)
    (B2 : S32.Idx → EReal) (W3 : S32x1.Idx → EReal) (B3 : S1.Idx → EReal) :
    shapeCast S4194304x1 (laidOut feats W1 B1 W2 B2 (shapeCast S1x32 W3 shapeCasts_S32x1_S1x32) B3) shapeCasts_S32768x128_S4194304x1
      = scores feats W1 B1 W2 B2 W3 B3 := by
  funext i
  obtain ⟨e, u, rfl⟩ : ∃ (e : Fin 4194304) (u : Fin 1), i = ix2 e u := ⟨i 0, i 1, eq_ix2 i⟩
  have hu : u.val = 0 := by omega
  have he : e.val < 4194304 := e.isLt
  rw [shapeCast_apply _ shapeCasts_S32768x128_S4194304x1 (ix2 e u)
    (ix2 (⟨e.val / 128, by omega⟩ : Fin 32768) (⟨e.val % 128, by omega⟩ : Fin 128)) (by
      rw [Shape.rowMajor_val_two, Shape.rowMajor_val_two]
      show e.val / 128 * 128 + e.val % 128 = e.val * 1 + u.val
      omega)]
  unfold laidOut scores
  refine score_congr (fun k => ?_) (fun _ _ => rfl) (fun _ => rfl) (fun _ _ => rfl) (fun _ => rfl) (fun k => ?_) rfl
  · refine congrArg feats (congrArg (fun r => ix2 r k) (Fin.ext ?_))
    show e.val / 128 * 128 + e.val % 128 = e.val
    omega
  · exact shapeCast_apply _ _ _ _ (by
      rw [Shape.rowMajor_val_two, Shape.rowMajor_val_two]
      show k.val * 1 + 0 = 0 * 32 + k.val
      omega)

/-- THE PROGRAM'S RESULT as a function of its arguments. -/
theorem result_eq (c : Dev nD) :
    Pipeline.afterTail₀ cfgs (dats m) 0 (V0 m) [hostOps1] c main_v22
      = scores (Cert.ReferenceIdeal.Read.val_main_v18 (F := Ideal) (m ((c : Thread nD τ).loc main_arg0)) (m ((c : Thread nD τ).loc main_arg1)))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [tail_eq, final, feats_eq, w3row_eq, V_main_arg2, V_main_arg3, V_main_arg4, V_main_arg5, V_main_arg7]
  exact relaid _ _ _ _ _ _ _

/-- THE RUN: every weakly fair execution of the program ends with its first result at the column of scores, its
    second result (the edge list, returned as given) and every argument unchanged. -/
theorem run : θ_run defs (onTc (τ := τ) (main (F := Ideal))) ⟨m, fun _ => 0, ρ⟩ fun r => ∀ c : Dev nD,
      r.2.mem ((c : Thread nD τ).loc main_v22)
        = scores (Cert.ReferenceIdeal.Read.val_main_v18 (F := Ideal) (m ((c : Thread nD τ).loc main_arg0)) (m ((c : Thread nD τ).loc main_arg1)))
            (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg1) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h c).2 main_v22 (Pipeline.mem_restRefs_of main_v22 (by decide) (by decide))).trans (result_eq m c),
      (((h c).2 main_arg1 (Pipeline.mem_restRefs_of main_arg1 (by decide) (by decide))).trans (W_main_arg1 m (dats m) c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c)))⟩)
    (run_main m ρ)

end Cert.KernelIdeal.Scores

end
-- ==== Proof.RefScores.lean ====
import proofs.«133788_j21251498180835_2_alg».proof.Proof.Gen.ReferenceIdeal.Read
import proofs.«133788_j21251498180835_2_alg».proof.Proof.EdgeScore

/-!
# The reference computes the score of every edge

The reference applies the three layers to the whole feature array at once: a product with each weight matrix, a
bias vector spread over all rows, a floor at zero, and at the end 1 / (1 + e^(-y)) spelt with a negation, an
exponential, a sum and a quotient. Read at row e, each of these touches row e alone, so the reference's result at
(e, 0) is the score of row e of its feature array.
-/

noncomputable section

namespace Cert.ReferenceIdeal.Scores

open Cert.ReferenceIdeal Cert.ReferenceIdeal.Read Idealize.ShloMosaic Idealize.ShloMosaic.ValueIdx Cert.EdgeScore
open scoped BigOperators

variable (x0 : (⟨S100000x16, .f32⟩ : BufTy).Contents (Elt Ideal)) (x1 : (⟨S2x4194304, .i32⟩ : BufTy).Contents (Elt Ideal))
  (x2 : (⟨S32x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))
  (x6 : (⟨S32x1, .f32⟩ : BufTy).Contents (Elt Ideal)) (x7 : (⟨S1, .f32⟩ : BufTy).Contents (Elt Ideal))

/-- The first hidden layer at row e, unit j: the row's dot product with column j of the first weight matrix, plus
    bias j, floored at zero. -/
theorem hidden1_apply (e : Fin 4194304) (j : Fin 64) :
    val_main_v23 (F := Ideal) x0 x1 x2 x3 (ix2 e j)
      = max ((∑ i : Fin 32, val_main_v18 (F := Ideal) x0 x1 (ix2 e i) * x2 (ix2 i j)) + x3 (ix1 j)) floor0 := by
  rw [val_main_v23_apply, val_main_v22_apply, val_main_v19_apply, val_main_v21_apply, val_main_v20_apply,
    val_main_call0_v0_apply, val_main_call0_cst_apply]
  have el : ∀ k, lidx_main_v19 (ix2 e j) k = ix2 e k := fun k => funext fun a => Fin.ext (by
    match a with | ⟨0, _⟩ => rfl | ⟨1, _⟩ => rfl)
  have er : ∀ k, ridx_main_v19 (ix2 e j) k = ix2 k j := fun k => funext fun a => Fin.ext (by
    match a with | ⟨0, _⟩ => rfl | ⟨1, _⟩ => rfl)
  have eb : idx_main_v20 (idx_main_v21 (ix2 e j)) = ix1 j := funext fun a => Fin.ext (by
    match a with | ⟨0, _⟩ => rfl)
  simp only [el, er, eb]
  rfl

/-- The second hidden layer at row e, unit k, from the first layer's row e. -/
theorem hidden2_apply (e : Fin 4194304) (k : Fin 32) :
    val_main_v28 (F := Ideal) x0 x1 x2 x3 x4 x5 (ix2 e k)
      = max ((∑ j : Fin 64, val_main_v23 (F := Ideal) x0 x1 x2 x3 (ix2 e j) * x4 (ix2 j k)) + x5 (ix1 k)) floor0 := by
  rw [val_main_v28_apply, val_main_v27_apply, val_main_v24_apply, val_main_v26_apply, val_main_v25_apply,
    val_main_call1_v0_apply, val_main_call1_cst_apply]
  have el : ∀ j, lidx_main_v24 (ix2 e k) j = ix2 e j := fun j => funext fun a => Fin.ext (by
    match a with | ⟨0, _⟩ => rfl | ⟨1, _⟩ => rfl)
  have er : ∀ j, ridx_main_v24 (ix2 e k) j = ix2 j k := fun j => funext fun a => Fin.ext (by
    match a with | ⟨0, _⟩ => rfl | ⟨1, _⟩ => rfl)
  have eb : idx_main_v25 (idx_main_v26 (ix2 e k)) = ix1 k := funext fun a => Fin.ext (by
    match a with | ⟨0, _⟩ => rfl)
  simp only [el, er, eb]
  rfl

/-- The reference's result at (e, 0): the score of row e of its feature array. -/
theorem result_apply (e : Fin 4194304) (u : Fin 1) :
    val_main_v38 (F := Ideal) x0 x1 x2 x3 x4 x5 x6 x7 (ix2 e u)
      = score (fun i => val_main_v18 (F := Ideal) x0 x1 (ix2 e i)) (fun i j => x2 (ix2 i j)) (fun j => x3 (ix1 j))
          (fun j k => x4 (ix2 j k)) (fun k => x5 (ix1 k)) (fun k => x6 (ix2 k (0 : Fin 1))) (x7 (ix1 (0 : Fin 1))) := by
  obtain rfl : u = 0 := Subsingleton.elim _ _
  rw [val_main_v38_apply, val_main_v37_apply, val_main_cst_3_apply, val_main_v36_apply, val_main_v35_apply,
    val_main_cst_apply, val_main_v34_apply, val_main_v33_apply, val_main_v32_apply, val_main_v29_apply,
    val_main_v31_apply, val_main_v30_apply]
  have el : ∀ k, lidx_main_v29 (ix2 e (0 : Fin 1)) k = ix2 e k := fun k => funext fun a => Fin.ext (by
    match a with | ⟨0, _⟩ => rfl | ⟨1, _⟩ => rfl)
  have er : ∀ k, ridx_main_v29 (ix2 e (0 : Fin 1)) k = ix2 k (0 : Fin 1) := fun k => funext fun a => Fin.ext (by
    match a with | ⟨0, _⟩ => rfl | ⟨1, _⟩ => rfl)
  have eb : idx_main_v30 (idx_main_v31 (ix2 e (0 : Fin 1))) = ix1 (0 : Fin 1) := funext fun a => Fin.ext (by
    match a with | ⟨0, _⟩ => rfl)
  simp only [el, er, eb, hidden2_apply, hidden1_apply]
  exact logistic_spelt _

/-- The reference's whole result: the column of all edges' scores over its feature array. -/
theorem result_eq :
    val_main_v38 (F := Ideal) x0 x1 x2 x3 x4 x5 x6 x7 = scores (val_main_v18 (F := Ideal) x0 x1) x2 x3 x4 x5 x6 x7 := by
  funext i
  obtain ⟨e, u, rfl⟩ : ∃ (e : Fin 4194304) (u : Fin 1), i = ix2 e u := ⟨i 0, i 1, eq_ix2 i⟩
  exact result_apply x0 x1 x2 x3 x4 x5 x6 x7 e u

end Cert.ReferenceIdeal.Scores

end
-- ==== Proof.lean ====
/-
  An edge decoder: for each of 4194304 edges, the embeddings of its two end nodes are set side by side into a row
  of 32 features, and a three-layer perceptron (32 to 64 to 32 to 1, rectified between layers, a logistic unit at
  the end) turns the row into a probability. The kernel program does the perceptron in tiles of 16384 edges and
  writes the probabilities 128 to a row; the reference does it on the whole feature array at once.

  On the extended reals the two agree entry by entry, for every input, because the perceptron acts on each edge's row
  by itself (Proof/EdgeScore.lean states it as one function of one row):
    * the feature array is built by the same host operations from the same two arguments on both sides
      (the kernel program's change of float format before the gather is the identity);
    * a tile's entry (a, c) is the score of the tile's row 128 * a + c (Proof/TileScores.lean), so the 256 tiles
      together hold at (r, c) the score of edge 128 * r + c (Proof/ScoreTiles.lean), and re-laid as a column that is
      the score of edge e at (e, 0) (Proof/KernelRun.lean);
    * the reference's whole-array operations read at row e give the same score (Proof/RefScores.lean): its products
      are the same sums in the same order, and its 1 / (1 + e^(-y)) is the logistic unit's definition.
  No step uses that the inputs are finite: only that adding the zero a sum starts from changes nothing.

  The three programs terminate without faulting and leave their arguments as given: for the two kernel programs
  this is the generated frame, for the reference its generated run. The idealized kernel is the kernel's own text
  (nothing was rewritten), so there is nothing to preserve.
-/
import proofs.«133788_j21251498180835_2_alg».proof.Defs
import proofs.«133788_j21251498180835_2_alg».proof.Proof.Gen.Kernel
import proofs.«133788_j21251498180835_2_alg».proof.Proof.Gen.Kernel.Skeleton
import proofs.«133788_j21251498180835_2_alg».proof.Proof.Gen.Kernel.Launch
import proofs.«133788_j21251498180835_2_alg».proof.Proof.Gen.Kernel.Points
import proofs.«133788_j21251498180835_2_alg».proof.Proof.Gen.Kernel.Frame
import proofs.«133788_j21251498180835_2_alg».proof.Proof.Gen.KernelIdeal
import proofs.«133788_j21251498180835_2_alg».proof.Proof.Gen.KernelIdeal.Skeleton
import proofs.«133788_j21251498180835_2_alg».proof.Proof.Gen.KernelIdeal.Launch
import proofs.«133788_j21251498180835_2_alg».proof.Proof.Gen.KernelIdeal.Points
import proofs.«133788_j21251498180835_2_alg».proof.Proof.Gen.KernelIdeal.Frame
import proofs.«133788_j21251498180835_2_alg».proof.Proof.Gen.ReferenceIdeal
import proofs.«133788_j21251498180835_2_alg».proof.Proof.Gen.Pre_finite_inputs
import proofs.«133788_j21251498180835_2_alg».proof.Proof.Gen.ReferenceIdeal.Run
import proofs.«133788_j21251498180835_2_alg».proof.Proof.Gen.ReferenceIdeal.Read
import proofs.«133788_j21251498180835_2_alg».proof.Proof.KernelRun
import proofs.«133788_j21251498180835_2_alg».proof.Proof.RefScores
import Idealize.ShloMosaic.Adequacy
import Idealize.ShloMosaic.Init

noncomputable section

namespace Cert.Proof

open Idealize.ShloMosaic Idealize.SL.Sem

/-- The kernel as printed runs and leaves its arguments as given. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its idealization. -/
theorem preserves : Cert.preserves_Kernel_KernelIdeal := trivial

/-- From memories that agree on the arguments both programs end with the column of all edges' scores over the same
    feature array, and with the edge list as given. -/
theorem algebraic : Cert.algebraic_KernelIdeal_ReferenceIdeal := by
  intro m ρ m' ρ' _ hagree
  refine ⟨_, _, Cert.KernelIdeal.Scores.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7⟩ := hagree c
    rw [(h c).1, Cert.ReferenceIdeal.Read.val_main_v38_eq, Cert.ReferenceIdeal.Scores.result_eq, a0, a1, a2, a3, a4, a5, a6, a7]
  · rw [(h c).2.1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
